-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S4000000 : Shape := ⟨1, ![4000000]⟩
abbrev S2048 : Shape := ⟨1, ![2048]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S4000000 : S_.BroadcastsInDim S4000000 (![] : Fin 0 → Fin S4000000.rank)
  reducesTo_S4000000_S_d0 : S4000000.ReducesTo [0] S_

variable [Facts]

def fn {F : FTy → Type} [FloatOps F] (main_arg0 : FVec F S100000x64 .f32) (main_arg1 : FVec F S50000x64 .f32) (main_arg2 : FVec F S4000000 .f32) (main_arg3 : IVec S4000000 32) (main_arg4 : IVec S4000000 32) (main_arg5 : IVec S2048 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S4000000 .f32 := Host.absf main_arg2
  let main_cst_2 : FVec F S_ .f32 := constant S_ .f32 0x7F800000#32
  let main_v10 : FVec F S4000000 .f32 := broadcastInDim S4000000 ![] bcast_S_S4000000 main_cst_2
  let main_v11 : IVec S4000000 1 := cmpf .olt main_v9 main_v10
  let main_c_3 : IVec S_ 1 := constantI S_ 1 1#1
  let main_v12 : IVec S_ 1 := (fun x v => Host.reduce IntOp.andi x v reducesTo_S4000000_S_d0 h_S_) main_v11 main_c_3
  let main_v13 : IVec S_ 1 := andi main_v8 main_v12
  main_v13
-- ==== Kernel.lean ====
abbrev S100000x64 : Shape := ⟨2, ![100000, 64]⟩
abbrev S50000x64 : Shape := ⟨2, ![50000, 64]⟩
abbrev S4000000 : Shape := ⟨1, ![4000000]⟩
abbrev S2048 : Shape := ⟨1, ![2048]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S2048x1 : Shape := ⟨2, ![2048, 1]⟩
abbrev S2048x64 : Shape := ⟨2, ![2048, 64]⟩
abbrev S50176x64 : Shape := ⟨2, ![50176, 64]⟩
abbrev S2048x50176 : Shape := ⟨2, ![2048, 50176]⟩
abbrev S1024x64 : Shape := ⟨2, ![1024, 64]⟩
abbrev S2048x1024 : Shape := ⟨2, ![2048, 1024]⟩
abbrev S2048x50000 : Shape := ⟨2, ![2048, 50000]⟩

abbrev nBuf : Space → Nat
  | .hbm => 79
  | .vmem => 5
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S2048, .i32⟩
  | .hbm, ⟨6, _⟩ => ⟨S150000x64, .f32⟩
  | .hbm, ⟨7, _⟩ => ⟨S4000000x1, .f32⟩
  | .hbm, ⟨8, _⟩ => ⟨S_, .i32⟩
  | .hbm, ⟨9, _⟩ => ⟨S4000000, .i32⟩
  | .hbm, ⟨10, _⟩ => ⟨S4000000, .i1⟩
  | .hbm, ⟨11, _⟩ => ⟨S_, .i32⟩
  | .hbm, ⟨12, _⟩ => ⟨S4000000, .i32⟩
  | .hbm, ⟨13, _⟩ => ⟨S4000000, .i32⟩
  | .hbm, ⟨14, _⟩ => ⟨S4000000, .i32⟩
  | .hbm, ⟨15, _⟩ => ⟨S4000000x1, .i32⟩
  | .hbm, ⟨16, _⟩ => ⟨S4000000x64, .f32⟩
  | .hbm, ⟨17, _⟩ => ⟨S4000000x64, .f32⟩
  | .hbm, ⟨18, _⟩ => ⟨S4000000x64, .f32⟩
  | .hbm, ⟨19, _⟩ => ⟨S_, .f32⟩
  | .hbm, ⟨20, _⟩ => ⟨S150000x64, .f32⟩
  | .hbm, ⟨21, _⟩ => ⟨S4000000x1, .i32⟩
  | .hbm, ⟨22, _⟩ => ⟨S150000x64, .f32⟩
  | .hbm, ⟨23, _⟩ => ⟨S150000x64, .f32⟩
  | .hbm, ⟨24, _⟩ => ⟨S4000000x1, .f32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000x64, .f32⟩
  | .hbm, ⟨34, _⟩ => ⟨S4000000x64, .f32⟩
  | .hbm, ⟨35, _⟩ => ⟨S4000000x64, .f32⟩
  | .hbm, ⟨36, _⟩ => ⟨S_, .f32⟩
  | .hbm, ⟨37, _⟩ => ⟨S150000x64, .f32⟩
  | .hbm, ⟨38, _⟩ => ⟨S4000000x1, .i32⟩
  | .hbm, ⟨39, _⟩ => ⟨S150000x64, .f32⟩
  | .hbm, ⟨40, _⟩ => ⟨S150000x64, .f32⟩
  | .hbm, ⟨41, _⟩ => ⟨S4000000x1, .f32⟩
  | .hbm, ⟨42, _⟩ => ⟨S_, .i32⟩
  | .hbm, ⟨43, _⟩ => ⟨S4000000, .i32⟩
  | .hbm, ⟨44, _⟩ => ⟨S4000000, .i1⟩
  | .hbm, ⟨45, _⟩ => ⟨S_, .i32⟩
  | .hbm, ⟨46, _⟩ => ⟨S4000000, .i32⟩
  | .hbm, ⟨47, _⟩ => ⟨S4000000, .i32⟩
  | .hbm, ⟨48, _⟩ => ⟨S4000000, .i32⟩
  | .hbm, ⟨49, _⟩ => ⟨S4000000x1, .i32⟩
  | .hbm, ⟨50, _⟩ => ⟨S4000000x64, .f32⟩
  | .hbm, ⟨51, _⟩ => ⟨S4000000x64, .f32⟩
  | .hbm, ⟨52, _⟩ => ⟨S4000000x64, .f32⟩
  | .hbm, ⟨53, _⟩ => ⟨S_, .f32⟩
  | .hbm, ⟨54, _⟩ => ⟨S150000x64, .f32⟩
  | .hbm, ⟨55, _⟩ => ⟨S4000000x1, .i32⟩
  | .hbm, ⟨56, _⟩ => ⟨S150000x64, .f32⟩
  | .hbm, ⟨57, _⟩ => ⟨S150000x64, .f32⟩
  | .hbm, ⟨58, _⟩ => ⟨S_, .f32⟩
  | .hbm, ⟨59, _⟩ => ⟨S150000x64, .f32⟩
  | .hbm, ⟨60, _⟩ => ⟨S150000x64, .f32⟩
  | .hbm, ⟨61, _⟩ => ⟨S100000x64, .f32⟩
  | .hbm, ⟨62, _⟩ => ⟨S50000x64, .f32⟩
  | .hbm, ⟨63, _⟩ => ⟨S_, .i32⟩
  | .hbm, ⟨64, _⟩ => ⟨S2048, .i32⟩
  | .hbm, ⟨65, _⟩ => ⟨S2048, .i1⟩
  | .hbm, ⟨66, _⟩ => ⟨S_, .i32⟩
  | .hbm, ⟨67, _⟩ => ⟨S2048, .i32⟩
  | .hbm, ⟨68, _⟩ => ⟨S2048, .i32⟩
  | .hbm, ⟨69, _⟩ => ⟨S2048, .i32⟩
  | .hbm, ⟨70, _⟩ => ⟨S2048x1, .i32⟩
  | .hbm, ⟨71, _⟩ => ⟨S2048x64, .f32⟩
  | .hbm, ⟨72, _⟩ => ⟨S_, .i32⟩
  | .hbm, ⟨73, _⟩ => ⟨S_, .f32⟩
  | .hbm, ⟨74, _⟩ => ⟨S50176x64, .f32⟩
  | .hbm, ⟨75, _⟩ => ⟨S2048x64, .bf16⟩
  | .hbm, ⟨76, _⟩ => ⟨S50176x64, .bf16⟩
  | .hbm, ⟨77, _⟩ => ⟨S2048x50176, .f32⟩
  | .hbm, ⟨78, _⟩ => ⟨S2048x50000, .f32⟩
  | .local _ .vmem, ⟨0, _⟩ => ⟨S2048x64, .bf16⟩
  | .local _ .vmem, ⟨1, _⟩ => ⟨S1024x64, .bf16⟩
  | .local _ .vmem, ⟨2, _⟩ => ⟨S1024x64, .bf16⟩
  | .local _ .vmem, ⟨3, _⟩ => ⟨S2048x1024, .f32⟩
  | .local _ .vmem, ⟨4, _⟩ => ⟨S2048x1024, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_10 : Ref sig .tc := ⟨.hbm, 72, rfl⟩
abbrev main_call0_v0 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S2048 : S_.BroadcastsInDim S2048 (![] : Fin 0 → Fin S2048.rank)
  bcast_S2048_S2048x1_0 : S2048.BroadcastsInDim S2048x1 (![0] : Fin 1 → Fin S2048x1.rank)
  pads_S50000x64_S50176x64_01760_000 : S50000x64.Pads (![0, 0] : Fin 2 → Nat) ![176, 0] ![0, 0] S50176x64
  h_S_ : 0 < S_.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x1024_S2048x1024_0_0 : ∀ a, (![0, 0] : Fin 2 → Nat) a + S2048x1024.size a ≤ S2048x1024.size a
  h_S2048x1024 : 0 < S2048x1024.numel
  slices_S2048x50176_S2048x50000_0_0 : S2048x50176.Slices ![0, 0] S2048x50000
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S100000x64_S2048x1_S2048x64_1_0_n_n_0_1_164_wf : GatherDims.WF S100000x64 S2048x1 S2048x64 [1] [0] [] [0] [] 1 ![1, 64]
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S2048x64.size a
  hwx0_0 : ∀ i : grid0.Coords, EltTy.bits .bf16 = 32 ∨ (Rect.block (s := S2048x64) S2048x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S50176x64.size a
  hwx0_1 : ∀ i : grid0.Coords, EltTy.bits .bf16 = 32 ∨ (Rect.block (s := S50176x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x50176.size a
  hwx0_2 : ∀ i : grid0.Coords, EltTy.bits .f32 = 32 ∨ (Rect.block (s := S2048x50176) S2048x1024.size (cc0_transform_2 i) (hinb0_2 i)).WholeWords (EltTy.packing .f32)

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_v55) S2048x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v56) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v57) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x64 : Shape := ⟨2, ![100000, 64]⟩
abbrev S50000x64 : Shape := ⟨2, ![50000, 64]⟩
abbrev S4000000 : Shape := ⟨1, ![4000000]⟩
abbrev S2048 : Shape := ⟨1, ![2048]⟩
abbrev S150000x64 : Shape := ⟨2, ![150000, 64]⟩
abbrev S4000000x1 : Shape := ⟨2, ![4000000, 1]⟩
abbrev S_ : Shape := ⟨0, ![]⟩
abbrev S4000000x64 : Shape := ⟨2, ![4000000, 64]⟩
abbrev S2048x1 : Shape := ⟨2, ![2048, 1]⟩
abbrev S2048x64 : Shape := ⟨2, ![2048, 64]⟩
abbrev S64x50000 : Shape := ⟨2, ![64, 50000]⟩
abbrev S2048x50000 : Shape := ⟨2, ![2048, 50000]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S4000000, .f32⟩
  | .hbm, ⟨3, _⟩ => ⟨S4000000, .i32⟩
  | .hbm, ⟨4, _⟩ => ⟨S4000000, .i32⟩
  | .hbm, ⟨5, _⟩ => ⟨S2048, .i32⟩
  | .hbm, ⟨6, _⟩ => ⟨S150000x64, .f32⟩
  | .hbm, ⟨7, _⟩ => ⟨S4000000x1, .f32⟩
  | .hbm, ⟨8, _⟩ => ⟨S_, .i32⟩
  | .hbm, ⟨9, _⟩ => ⟨S4000000, .i32⟩
  | .hbm, ⟨10, _⟩ => ⟨S4000000, .i1⟩
  | .hbm, ⟨11, _⟩ => ⟨S_, .i32⟩
  | .hbm, ⟨12, _⟩ => ⟨S4000000, .i32⟩
  | .hbm, ⟨13, _⟩ => ⟨S4000000, .i32⟩
  | .hbm, ⟨14, _⟩ => ⟨S4000000, .i32⟩
  | .hbm, ⟨15, _⟩ => ⟨S4000000x1, .i32⟩
  | .hbm, ⟨16, _⟩ => ⟨S4000000x64, .f32⟩
  | .hbm, ⟨17, _⟩ => ⟨S4000000x64, .f32⟩
  | .hbm, ⟨18, _⟩ => ⟨S4000000x64, .f32⟩
  | .hbm, ⟨19, _⟩ => ⟨S_, .f32⟩
  | .hbm, ⟨20, _⟩ => ⟨S150000x64, .f32⟩
  | .hbm, ⟨21, _⟩ => ⟨S4000000x1, .i32⟩
  | .hbm, ⟨22, _⟩ => ⟨S150000x64, .f32⟩
  | .hbm, ⟨23, _⟩ => ⟨S150000x64, .f32⟩
  | .hbm, ⟨24, _⟩ => ⟨S4000000x1, .f32⟩
  | .hbm, ⟨25, _⟩ => ⟨S_, .i32⟩
  | .hbm, ⟨26, _⟩ => ⟨S4000000, .i32⟩
  | .hbm, ⟨27, _⟩ => ⟨S4000000, .i1⟩
  | .hbm, ⟨28, _⟩ => ⟨S_, .i32⟩
  | .hbm, ⟨29, _⟩ => ⟨S4000000, .i32⟩
  | .hbm, ⟨30, _⟩ => ⟨S4000000, .i32⟩
  | .hbm, ⟨31, _⟩ => ⟨S4000000, .i32⟩
  | .hbm, ⟨32, _⟩ => ⟨S4000000x1, .i32⟩
  | .hbm, ⟨33, _⟩ => ⟨S4000000x64, .f32⟩
  | .hbm, ⟨34, _⟩ => ⟨S4000000x64, .f32⟩
  | .hbm, ⟨35, _⟩ => ⟨S4000000x64, .f32⟩
  | .hbm, ⟨36, _⟩ => ⟨S_, .f32⟩
  | .hbm, ⟨37, _⟩ => ⟨S150000x64, .f32⟩
  | .hbm, ⟨38, _⟩ => ⟨S4000000x1, .i32⟩
  | .hbm, ⟨39, _⟩ => ⟨S150000x64, .f32⟩
  | .hbm, ⟨40, _⟩ => ⟨S150000x64, .f32⟩
  | .hbm, ⟨41, _⟩ => ⟨S4000000x1, .f32⟩
  | .hbm, ⟨42, _⟩ => ⟨S_, .i32⟩
  | .hbm, ⟨43, _⟩ => ⟨S4000000, .i32⟩
  | .hbm, ⟨44, _⟩ => ⟨S4000000, .i1⟩
  | .hbm, ⟨45, _⟩ => ⟨S_, .i32⟩
  | .hbm, ⟨46, _⟩ => ⟨S4000000, .i32⟩
  | .hbm, ⟨47, _⟩ => ⟨S4000000, .i32⟩
  | .hbm, ⟨48, _⟩ => ⟨S4000000, .i32⟩
  | .hbm, ⟨49, _⟩ => ⟨S4000000x1, .i32⟩
  | .hbm, ⟨50, _⟩ => ⟨S4000000x64, .f32⟩
  | .hbm, ⟨51, _⟩ => ⟨S4000000x64, .f32⟩
  | .hbm, ⟨52, _⟩ => ⟨S4000000x64, .f32⟩
  | .hbm, ⟨53, _⟩ => ⟨S_, .f32⟩
  | .hbm, ⟨54, _⟩ => ⟨S150000x64, .f32⟩
  | .hbm, ⟨55, _⟩ => ⟨S4000000x1, .i32⟩
  | .hbm, ⟨56, _⟩ => ⟨S150000x64, .f32⟩
  | .hbm, ⟨57, _⟩ => ⟨S150000x64, .f32⟩
  | .hbm, ⟨58, _⟩ => ⟨S_, .f32⟩
  | .hbm, ⟨59, _⟩ => ⟨S150000x64, .f32⟩
  | .hbm, ⟨60, _⟩ => ⟨S150000x64, .f32⟩
  | .hbm, ⟨61, _⟩ => ⟨S100000x64, .f32⟩
  | .hbm, ⟨62, _⟩ => ⟨S50000x64, .f32⟩
  | .hbm, ⟨63, _⟩ => ⟨S_, .i32⟩
  | .hbm, ⟨64, _⟩ => ⟨S2048, .i32⟩
  | .hbm, ⟨65, _⟩ => ⟨S2048, .i1⟩
  | .hbm, ⟨66, _⟩ => ⟨S_, .i32⟩
  | .hbm, ⟨67, _⟩ => ⟨S2048, .i32⟩
  | .hbm, ⟨68, _⟩ => ⟨S2048, .i32⟩
  | .hbm, ⟨69, _⟩ => ⟨S2048, .i32⟩
  | .hbm, ⟨70, _⟩ => ⟨S2048x1, .i32⟩
  | .hbm, ⟨71, _⟩ => ⟨S2048x64, .f32⟩
  | .hbm, ⟨72, _⟩ => ⟨S64x50000, .f32⟩
  | .hbm, ⟨73, _⟩ => ⟨S2048x50000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_c_5 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_8 : Ref sig .tc := ⟨.hbm, 63, rfl⟩
abbrev main_v47 : Ref sig .tc := ⟨.hbm, 64, rfl⟩
abbrev main_v48 : Ref sig .tc := ⟨.hbm, 65, rfl⟩
abbrev main_c_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S2048 : S_.BroadcastsInDim S2048 (![] : Fin 0 → Fin S2048.rank)
  bcast_S2048_S2048x1_0 : S2048.BroadcastsInDim S2048x1 (![0] : Fin 1 → Fin S2048x1.rank)
  transposes_S50000x64_S64x50000_1_0 : S50000x64.Transposes [1, 0] S64x50000
  gather_S150000x64_S4000000x1_S4000000x64_1_0_n_n_0_1_164_wf : GatherDims.WF S150000x64 S4000000x1 S4000000x64 [1] [0] [] [0] [] 1 ![1, 64]
  scatter_S150000x64_S4000000x1_S4000000x64_1_0_0_1_wf : ScatterDims.WF S150000x64 S4000000x1 S4000000x64 [1] [0] [0] 1
  gather_S100000x64_S2048x1_S2048x64_1_0_n_n_0_1_164_wf : GatherDims.WF S100000x64 S2048x1 S2048x64 [1] [0] [] [0] [] 1 ![1, 64]
  dot_S2048x64_S64x50000_S2048x50000_1_0_0_1_n_n_wf : DotDims.WF S2048x64 S64x50000 S2048x50000 [1] [0] [0] [1] [] []

variable [Facts₀]

def gather_S150000x64_S4000000x1_S4000000x64_1_0_n_n_0_1_164 : GatherDims S150000x64 S4000000x1 S4000000x64 where
  offsetDims := [1]
  collapsedSliceDims := [0]
  operandBatchingDims := []
  startIndicesBatchingDims := []
  startIndexMap := [0]
  indexVectorDim := 1
  sliceSizes := ![1, 64]
  wf := gather_S150000x64_S4000000x1_S4000000x64_1_0_n_n_0_1_164_wf
def scatter_S150000x64_S4000000x1_S4000000x64_1_0_0_1 : ScatterDims S150000x64 S4000000x1 S4000000x64 where
  updateWindowDims := [1]
  insertedWindowDims := [0]
  scatterDimsToOperandDims := [0]
  indexVectorDim := 1
  wf := scatter_S150000x64_S4000000x1_S4000000x64_1_0_0_1_wf
def gather_S100000x64_S2048x1_S2048x64_1_0_n_n_0_1_164 : GatherDims S100000x64 S2048x1 S2048x64 where
  offsetDims := [1]
  collapsedSliceDims := [0]
  operandBatchingDims := []
  startIndicesBatchingDims := []
  startIndexMap := [0]
  indexVectorDim := 1
  sliceSizes := ![1, 64]
  wf := gather_S100000x64_S2048x1_S2048x64_1_0_n_n_0_1_164_wf
def dot_S2048x64_S64x50000_S2048x50000_1_0_0_1_n_n : DotDims S2048x64 S64x50000 S2048x50000 where
  lhsContracting := [1]
  rhsContracting := [0]
  lhsNonContracting := [0]
  rhsNonContracting := [1]
  lhsBatch := []
  rhsBatch := []
  wf := dot_S2048x64_S64x50000_S2048x50000_1_0_0_1_n_n_wf

class Facts : Prop extends Facts₀ where

variable [Facts]
-- ==== Proof.LibRowProducts.lean ====
/-
  Products of the rows of two matrices, on the extended reals.

  General lemma, for any extents: the product of an `M × K` matrix `A` with the transpose of an `N × K` matrix `B`
  — both operands contracted along their second axis — into a zero accumulator, read at `(i, j)`, is the sum over
  `l` of `A (i, l) · B (j, l)`: the inner product of row `i` of `A` with row `j` of `B`.  Indices are built
  from their coordinates (`ix2`), so the lemma rewrites a term at a literal position.
-/
import Idealize.ShloMosaic.PureOps.Ideal.Laws
import Idealize.ShloMosaic.Lib.ValueIdx

noncomputable section

open Idealize.ShloMosaic Idealize.ShloMosaic.ValueIdx

namespace Cert.RowProducts

/-- A product of an `M × K` matrix with the transpose of an `N × K` matrix into a zero accumulator, read at
    `(i, j)`: the sum over the contracted position `l` of `A (i, l) · B (j, l)`.  The four hypotheses say which
    coordinate of each operand index is the row and which the contracted position; at a literal record each holds
    by computation. -/
theorem matmul_transposed_zero_apply {M K N : Nat} {φ₁ φ₂ : FTy} (d : DotDims ⟨2, ![M, K]⟩ ⟨2, ![N, K]⟩ ⟨2, ![M, N]⟩)
    (hr : d.contr.rank = 1) (hs : d.contr.size ⟨0, by omega⟩ = K)
    (hl0 : ∀ j k, (d.lhsIdx j k 0).val = (j 0).val) (hl1 : ∀ j k, (d.lhsIdx j k 1).val = (k ⟨0, by omega⟩).val)
    (hr0 : ∀ j k, (d.rhsIdx j k 0).val = (j 1).val) (hr1 : ∀ j k, (d.rhsIdx j k 1).val = (k ⟨0, by omega⟩).val)
    (A : FVec Ideal ⟨2, ![M, K]⟩ φ₁) (B : FVec Ideal ⟨2, ![N, K]⟩ φ₂) (i : Fin M) (j : Fin N) :
    matmul d none A B (constant ⟨2, ![M, N]⟩ .f32 0x00000000#32) (ix2 i j) = ∑ l : Fin K, A (ix2 i l) * B (ix2 j l) := by
  show FloatOps.matmul d none A B (constant ⟨2, ![M, N]⟩ .f32 0x00000000#32) (ix2 i j) = _
  rw [Ideal.matmul_constant_zero_apply, ← Equiv.sum_comp (contrEquiv1 d K hr hs).symm]
  refine Finset.sum_congr rfl fun l _ => ?_
  have e1 : d.lhsIdx (ix2 i j) ((contrEquiv1 d K hr hs).symm l) = ix2 i l := by
    funext a; apply Fin.ext
    match a with
    | ⟨0, _⟩ => exact hl0 _ _
    | ⟨1, _⟩ => exact (hl1 _ _).trans (contrEquiv1_symm_val d K hr hs l)
  have e2 : d.rhsIdx (ix2 i j) ((contrEquiv1 d K hr hs).symm l) = ix2 j l := by
    funext a; apply Fin.ext
    match a with
    | ⟨0, _⟩ => exact hr0 _ _
    | ⟨1, _⟩ => exact (hr1 _ _).trans (contrEquiv1_symm_val d K hr hs l)
  rw [e1, e2]

end Cert.RowProducts

end
-- ==== Proof.Scores.lean ====
/-
  The specification: the scores of every row of one matrix against every row of another.

  For an `M × K` matrix `A` and an `N × K` matrix `B` of extended reals, `scores A B` is the `M × N` matrix whose
  entry `(i, j)` is the inner product of row `i` of `A` with row `j` of `B`: the sum over `l` of `A (i, l) · B (j, l)`,
  the `K` products added in the order of `l`.  Both programs of this certificate compute this matrix of one pair
  `(A, B)`: one as a blocked product with the second operand's rows contracted, the other as a plain product with
  the second operand transposed first.  Nothing here needs the entries to be finite: the two sides are the same sum
  of the same products.
-/
import Idealize.ShloMosaic.PureOps.Ideal
import Idealize.ShloMosaic.Lib.ValueIdx

noncomputable section

open Idealize.ShloMosaic Idealize.ShloMosaic.ValueIdx

namespace Cert.Scores

/-- Entry `(i, j)` is the inner product of row `i` of `A` with row `j` of `B`. -/
def scores {M K N : Nat} {φ₁ φ₂ : FTy} (A : FVec Ideal ⟨2, ![M, K]⟩ φ₁) (B : FVec Ideal ⟨2, ![N, K]⟩ φ₂) :
    FVec Ideal ⟨2, ![M, N]⟩ .f32 :=
  fun i => ∑ l : Fin K, A (ix2 (⟨(i 0).val, idx2_lt0 i⟩ : Fin M) l) * B (ix2 (⟨(i 1).val, idx2_lt1 i⟩ : Fin N) l)

/-- The scores at a position given by its two coordinates. -/
theorem scores_apply {M K N : Nat} {φ₁ φ₂ : FTy} (A : FVec Ideal ⟨2, ![M, K]⟩ φ₁) (B : FVec Ideal ⟨2, ![N, K]⟩ φ₂)
    (i : Fin M) (j : Fin N) : scores A B (ix2 i j) = ∑ l : Fin K, A (ix2 i l) * B (ix2 j l) := rfl

/-- Entry `(i, j)` reads row `i` of the first operand and row `j` of the second, nothing else: two pairs of operands
    (the second ones of any numbers of rows) that agree on those two rows have the same score there. -/
theorem scores_congr {M K N N' : Nat} {φ₁ φ₂ φ₃ φ₄ : FTy} (A : FVec Ideal ⟨2, ![M, K]⟩ φ₁) (A' : FVec Ideal ⟨2, ![M, K]⟩ φ₃)
    (B : FVec Ideal ⟨2, ![N, K]⟩ φ₂) (B' : FVec Ideal ⟨2, ![N', K]⟩ φ₄) (i : Fin M) (j : Fin N) (j' : Fin N')
    (hA : ∀ l : Fin K, A (ix2 i l) = A' (ix2 i l)) (hB : ∀ l : Fin K, B (ix2 j l) = B' (ix2 j' l)) :
    scores A B (ix2 i j) = scores A' B' (ix2 i j') := by
  rw [scores_apply, scores_apply]
  exact Finset.sum_congr rfl fun l _ => by rw [hA l, hB l]

end Cert.Scores

end
-- ==== Proof.BlockScores.lean ====
/-
  What the kernel body stores at one grid point: the scores of the user rows against that point's block of item rows.

  The body loads the whole `2048 × 64` block `x0` of the first operand and a `1024 × 64` block `x1` of the second,
  and stores their product with the second operand's ROWS contracted (both operands along their axis 1) into a
  zero accumulator.  So entry `(p, q)` of what it stores is the sum over `l` of `x0 (p, l) · x1 (q, l)`.
-/
import proofs.«112845_j73821897883701_1_alg».proof.Proof.Gen.KernelIdeal.Skeleton
import proofs.«112845_j73821897883701_1_alg».proof.Proof.LibRowProducts
import proofs.«112845_j73821897883701_1_alg».proof.Proof.Scores
import Idealize.ShloMosaic.Lib.Pipeline.Value

noncomputable section

open Idealize.ShloMosaic Idealize.ShloMosaic.ValueIdx

namespace Cert.KernelIdeal.BlockScores

open Cert.KernelIdeal Cert.KernelIdeal.Gen

/-- The product's record: output row from the first operand's row, output column from the second operand's ROW,
    both operands' columns contracted. -/
abbrev dims := dot_S2048x64_S1024x64_S2048x1024_1_1_0_0_n_n

theorem lhs_row (j : S2048x1024.Idx) (k : dims.contr.Idx) : (dims.lhsIdx j k 0).val = (j 0).val := by
  unfold DotDims.lhsIdx
  rw [dif_neg (show ¬(0 : Fin S2048x64.rank) ∈ dims.lhsBatch by decide),
    dif_pos (show (0 : Fin S2048x64.rank) ∈ dims.lhsNonContracting by decide)]
  rfl

theorem lhs_col (j : S2048x1024.Idx) (k : dims.contr.Idx) : (dims.lhsIdx j k 1).val = (k ⟨0, by decide⟩).val :=
  dims.lhsIdx_val_of_single rfl j k

theorem rhs_row (j : S2048x1024.Idx) (k : dims.contr.Idx) : (dims.rhsIdx j k 0).val = (j 1).val := by
  unfold DotDims.rhsIdx
  rw [dif_neg (show ¬(0 : Fin S1024x64.rank) ∈ dims.rhsBatch by decide),
    dif_pos (show (0 : Fin S1024x64.rank) ∈ dims.rhsNonContracting by decide)]
  rfl

theorem rhs_col (j : S2048x1024.Idx) (k : dims.contr.Idx) : (dims.rhsIdx j k 1).val = (k ⟨0, by decide⟩).val :=
  dims.rhsIdx_val_of_single rfl j k

/-- The body's one payload, read at `(p, q)`: row `p` of the first block against row `q` of the second. -/
theorem stored_apply (x0 : FVec Ideal S2048x64 .bf16) (x1 : FVec Ideal S1024x64 .bf16) (p : Fin 2048) (q : Fin 1024) :
    k0_pay1 (F := Ideal) x0 x1 (ix2 p q) = ∑ l : Fin 64, x0 (ix2 p l) * x1 (ix2 q l) := by
  unfold k0_pay1
  rw [shapeCast_self, shapeCast_self]
  exact Cert.RowProducts.matmul_transposed_zero_apply dims rfl rfl lhs_row lhs_col rhs_row rhs_col x0 x1 p q

/-- The same as the scores of the two blocks. -/
theorem stored_eq_scores (x0 : FVec Ideal S2048x64 .bf16) (x1 : FVec Ideal S1024x64 .bf16) (p : Fin 2048) (q : Fin 1024) :
    k0_pay1 (F := Ideal) x0 x1 (ix2 p q) = Cert.Scores.scores x0 x1 (ix2 p q) :=
  (stored_apply x0 x1 p q).trans (Cert.Scores.scores_apply x0 x1 p q).symm

end Cert.KernelIdeal.BlockScores

end
-- ==== Proof.PaddedScores.lean ====
/-
  From the blocks to the array: after the region the kernel's output array holds the scores of the user rows
  against ALL the (padded) item rows.

  The grid has 49 points.  At point `t` the first operand's block is the whole `2048 × 64` array, the second
  operand's block is rows `1024 t … 1024 t + 1023` of the `50176 × 64` array, and the output's block is columns
  `1024 t … 1024 t + 1023` of the `2048 × 50176` array.  What point `t` writes back is therefore block `t` of ONE
  matrix, the scores of the two arrays as the region finds them; the 49 column blocks tile the output array (column
  `j` lies in block `j / 1024`), so the array ends holding that matrix.
-/
import proofs.«112845_j73821897883701_1_alg».proof.Proof.Gen.KernelIdeal.Frame
import proofs.«112845_j73821897883701_1_alg».proof.Proof.BlockScores
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.PaddedScores

open Cert.KernelIdeal Cert.KernelIdeal.Gen

variable (m : (ℓ : Loc nD τ sig) → Buf (Elt Ideal) ℓ)

theorem zero_offsets : (![0, 0] : Fin 2 → Nat) = fun _ => 0 := funext fun a => by fin_cases a <;> rfl

/-- The printed index maps over the grid: the first operand's block never moves, the second operand's moves down
    its rows and the output's along its columns, one block per point. -/
theorem index_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

theorem point_lt (t : Fin cfg0.N) : t.val < 49 := t.isLt.trans_eq N_0

/-- The scores of the user rows against the padded item rows, of the two arrays as the region finds them. -/
abbrev padded (c : Dev nD) : FVec Ideal ⟨2, ![2048, 50176]⟩ .f32 :=
  Cert.Scores.scores (M := 2048) (K := 64) (N := 50176) (φ₁ := .bf16) (φ₂ := .bf16) (V m c main_v55) (V m c main_v56)

/-- WHAT POINT `t` WRITES BACK is block `t` of the padded scores. -/
theorem flushed_eq (c : Dev nD) (t : Fin cfg0.N) :
    (dats m 0 c).flushed 2 t = ((cfg0.win 2).blk t).view.read (Elt Ideal) (padded m c) := by
  show (cfg0.win 2).cut (grid0.coords t) ((dats m 0 c).after 2 t) = _
  rw [after0_2]
  unfold out0_2
  rw [View.canon_unit_zero zero_offsets]
  simp only [View.ld_unit_zero (S := S2048x64) zero_offsets, View.ld_unit_zero (S := S1024x64) zero_offsets]
  obtain ⟨e00, e01, e10, e11, e20, e21⟩ := index_facts t
  have ht := point_lt t
  funext j
  obtain ⟨p, q, rfl⟩ : ∃ (p : Fin 2048) (q : Fin 1024), j = ix2 p q := ⟨j 0, j 1, eq_ix2 j⟩
  have hq : q.val < 1024 := q.isLt
  show k0_pay1 (iblk m c 0 t) (iblk m c 1 t) (ix2 p q) = padded m c (((cfg0.win 2).blk t).view.emb (ix2 p q))
  refine (BlockScores.stored_apply (iblk m c 0 t) (iblk m c 1 t) p q).trans ?_
  -- the output block's entry (p, q) is the array's entry (p, 1024 t + q)
  have hout : ((cfg0.win 2).blk t).view.emb (ix2 p q) = ix2 p (⟨t.val * 1024 + q.val, by omega⟩ : Fin 50176) := by
    funext a; apply Fin.ext
    match a with
    | ⟨0, _⟩ => show win0_2.index t (0 : Fin 2) * 2048 + 1 * p.val = p.val; omega
    | ⟨1, _⟩ => show win0_2.index t (1 : Fin 2) * 1024 + 1 * q.val = t.val * 1024 + q.val; omega
  rw [hout]
  unfold padded
  rw [Cert.Scores.scores_apply]
  refine Finset.sum_congr rfl fun l _ => ?_
  have hl : l.val < 64 := l.isLt
  -- the first operand's block is the whole array; the second operand's block is rows 1024 t … of its array
  have h0 : ((cfg0.win 0).blk t).view.emb (ix2 p l) = ix2 p l := by
    funext a; apply Fin.ext
    match a with
    | ⟨0, _⟩ => show win0_0.index t (0 : Fin 2) * 2048 + 1 * p.val = p.val; omega
    | ⟨1, _⟩ => show win0_0.index t (1 : Fin 2) * 64 + 1 * l.val = l.val; omega
  have h1 : ((cfg0.win 1).blk t).view.emb (ix2 q l) = ix2 (⟨t.val * 1024 + q.val, by omega⟩ : Fin 50176) l := by
    funext a; apply Fin.ext
    match a with
    | ⟨0, _⟩ => show win0_1.index t (0 : Fin 2) * 1024 + 1 * q.val = t.val * 1024 + q.val; omega
    | ⟨1, _⟩ => show win0_1.index t (1 : Fin 2) * 64 + 1 * l.val = l.val; omega
  have f0 : iblk m c 0 t (ix2 p l) = V m c main_v55 (ix2 p l) := by
    show V m c main_v55 (((cfg0.win 0).blk t).view.emb (ix2 p l)) = _
    rw [h0]
  have f1 : iblk m c 1 t (ix2 q l) = V m c main_v56 (ix2 (⟨t.val * 1024 + q.val, by omega⟩ : Fin 50176) l) := by
    show V m c main_v56 (((cfg0.win 1).blk t).view.emb (ix2 q l)) = _
    rw [h1]
  exact congrArg₂ (fun a b : EReal => a * b) f0 f1

/-- An index of the output array is in point `t`'s block iff each coordinate is in the block's range on its axis. -/
theorem mem_block (t : Fin cfg0.N) (i : S2048x50176.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v57).slice (win0_2.rect t)).set ↔ _
  rw [View.set_slice_whole, Rect.mem_set_unit]
  exact Iff.rfl

/-- The column blocks tile the output array: column `j` lies in the block of point `j / 1024`. -/
theorem covered (i : S2048x50176.Idx) :
    ∃ t : Fin cfg0.N, (cfg0.win 2).flush t = true ∧ i ∈ ((cfg0.win 2).blk t).view.set := by
  have hi0 : (i 0).val < 2048 := (i 0).isLt
  have hi1 : (i 1).val < 50176 := (i 1).isLt
  obtain ⟨t, ht⟩ : ∃ t : Fin cfg0.N, t.val = (i 1).val / 1024 :=
    ⟨⟨(i 1).val / 1024, by rw [show cfg0.N = 49 from N_0]; omega⟩, rfl⟩
  obtain ⟨-, -, -, -, e20, e21⟩ := index_facts t
  refine ⟨t, flush0_2 t, ?_⟩
  rw [mem_block]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- THE OUTPUT ARRAY after the region: the padded scores. -/
theorem final (c : Dev nD) : (dats m 0 c).arrAt 2 cfg0.N = padded m c :=
  (dats m 0 c).arrAt_eq_of_cover 2 (padded m c) (fun t _ => flushed_eq m c t) covered

end Cert.KernelIdeal.PaddedScores

end
-- ==== Proof.EntryArrays.lean ====
/-
  The two arrays the region is launched on.

  Before the region both programs run the SAME host operations on the arguments: three rounds of gathering rows,
  scaling them and adding them into their destination rows, the mean of the four stages, the two row ranges (users,
  items) and the gather of the requested user rows.  That shared chain is carried here as the reference's own two
  named stages, `users` (2048 × 64) and `items` (50000 × 64), evaluated at the kernel's arguments; it is never opened.
  The kernel then rounds `users` to the narrow format (at exact values: nothing changes) for its first operand, and
  appends 176 rows of padding to `items` and rounds it the same way for its second operand.
-/
import proofs.«112845_j73821897883701_1_alg».proof.Proof.Gen.KernelIdeal.Frame
import proofs.«112845_j73821897883701_1_alg».proof.Proof.Gen.ReferenceIdeal.Read
import Idealize.ShloMosaic.Lib.StableHlo.Run

noncomputable section

open Idealize.ShloMosaic Idealize.ShloMosaic.TcCoe Idealize.SL.Sem Idealize.ShloMosaic.StableHlo

namespace Cert.KernelIdeal.EntryArrays

open Cert.KernelIdeal Cert.KernelIdeal.Gen

variable (m : (ℓ : Loc nD τ sig) → Buf (Elt Ideal) ℓ)

/-- The user rows: the shared host chain's `2048 × 64` stage, of the kernel's arguments. -/
def users (c : Dev nD) : FVec Ideal S2048x64 .f32 :=
  Cert.ReferenceIdeal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The item rows: the shared host chain's `50000 × 64` stage, of the kernel's arguments. -/
def items (c : Dev nD) : FVec Ideal S50000x64 .f32 :=
  Cert.ReferenceIdeal.Read.val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4))

set_option maxRecDepth 16384 in
set_option maxHeartbeats 40000000 in
/-- The region's first operand is the user rows, rounded to the narrow format. -/
theorem users_entry (c : Dev nD) :
    (V m c main_v55 : S2048x64.Idx → EReal) = truncf .bf16 (users m c) bitsLt_bf16_f32 := by
  dsimp only [V, V0]
  simp only [hostOps0, hostOps0_1, hostOps0_2, List.flatten_cons, List.flatten_nil, List.append_nil, List.cons_append,
    List.nil_append]
  after_results_simp
  rfl

set_option maxRecDepth 16384 in
set_option maxHeartbeats 40000000 in
/-- The region's second operand is the item rows with 176 rows of some padding value appended, rounded to the narrow
    format. -/
theorem items_entry (c : Dev nD) : ∃ z : FVec Ideal S_ .f32,
    (V m c main_v56 : S50176x64.Idx → EReal)
      = truncf .bf16 (pad S50176x64 ![0, 0] ![176, 0] ![0, 0] (items m c) z pads_S50000x64_S50176x64_01760_000 h_S_) bitsLt_bf16_f32 := by
  refine ⟨sitofp .f32 (constantI S_ 32 0#32), ?_⟩
  dsimp only [V, V0]
  simp only [hostOps0, hostOps0_1, hostOps0_2, List.flatten_cons, List.flatten_nil, List.append_nil, List.cons_append,
    List.nil_append]
  after_results_simp
  rfl

end Cert.KernelIdeal.EntryArrays

end
-- ==== Proof.KernelScores.lean ====
/-
  The kernel's result: the scores of the user rows against the item rows.

  After the region the output array holds the scores against the PADDED item rows (50176 of them); the one host
  operation after the region keeps columns `0 … 49999`.  Column `j < 50000` of the padded scores reads row `j` of
  the padded item matrix, which is row `j` of the item matrix itself (the padding is appended below it), and the
  rounding of both operands to the narrow format changes nothing at exact values.  So the result is the scores of
  `users` against `items`, entry by entry.
-/
import proofs.«112845_j73821897883701_1_alg».proof.Proof.PaddedScores
import proofs.«112845_j73821897883701_1_alg».proof.Proof.EntryArrays
import Idealize.ShloMosaic.Lib.KernelVsHost
import Idealize.ShloMosaic.Lib.StableHlo.Run

set_option maxRecDepth 16384

noncomputable section

open Idealize.ShloMosaic Idealize.ShloMosaic.TcCoe Idealize.ShloMosaic.ValueIdx Idealize.SL.Sem
open Idealize.ShloMosaic.StableHlo

namespace Cert.KernelIdeal.KernelScores

open Cert.KernelIdeal Cert.KernelIdeal.Gen

variable (m : (ℓ : Loc nD τ sig) → Buf (Elt Ideal) ℓ) (ρ : Dev nD → PrngReg)

/-- The scores of the user rows against the item rows. -/
def result (c : Dev nD) : FVec Ideal ⟨2, ![2048, 50000]⟩ .f32 :=
  Cert.Scores.scores (M := 2048) (K := 64) (N := 50000) (φ₁ := .f32) (φ₂ := .f32) (EntryArrays.users m c) (EntryArrays.items m c)

/-- What the program's last line leaves: the first 50000 columns of the padded scores. -/
theorem tail_value (c : Dev nD) :
    Pipeline.afterTail₀ cfgs (dats m) 0 (V0 m) [hostOps1] c main_v58
      = extractStridedSlice S2048x50000 ![0, 0] (PaddedScores.padded m c) slices_S2048x50176_S2048x50000_0_0 := by
  unfold Pipeline.afterTail₀
  show StableHlo.after hostOps1 _ (Proc.devRef .tc main_v58) = _
  after_results
  exact congrArg (fun x => extractStridedSlice S2048x50000 ![0, 0] x slices_S2048x50176_S2048x50000_0_0)
    ((Pipeline.withArrays_arr spec0 launch0.win.arr_inj c (V0 m c) (fun w => (dats m 0 c).arrAt w cfg0.N) 2).trans
      (PaddedScores.final m c))

/-- Entry `(i, j)` of those columns is the score of user row `i` against item row `j`. -/
theorem kept_columns_apply (c : Dev nD) (i : Fin 2048) (j : Fin 50000) :
    extractStridedSlice S2048x50000 ![0, 0] (PaddedScores.padded m c) slices_S2048x50176_S2048x50000_0_0 (ix2 i j)
      = result m c (ix2 i j) := by
  have hj : j.val < 50000 := j.isLt
  rw [extractStridedSlice_apply ![0, 0] (PaddedScores.padded m c) slices_S2048x50176_S2048x50000_0_0 (ix2 i j)
    (ix2 i (⟨j.val, by omega⟩ : Fin 50176)) (fun a => match a with
      | ⟨0, _⟩ => (Nat.zero_add _).symm
      | ⟨1, _⟩ => (Nat.zero_add _).symm)]
  obtain ⟨z, hz⟩ := EntryArrays.items_entry m c
  unfold PaddedScores.padded result
  refine Cert.Scores.scores_congr _ _ _ _ i _ j (fun l => ?_) (fun l => ?_)
  · -- the first operand: the user rows, rounded (exactly)
    rw [EntryArrays.users_entry m c]
    rfl
  · -- the second operand at a row above the padding: the item row, rounded (exactly)
    rw [hz]
    show pad S50176x64 ![0, 0] ![176, 0] ![0, 0] (EntryArrays.items m c) z pads_S50000x64_S50176x64_01760_000 h_S_
      (ix2 (⟨j.val, by omega⟩ : Fin 50176) l) = _
    exact pad_apply_of_inside _ _ _ _ _ _ _ _ (ix2 j l) (fun a => match a with
      | ⟨0, _⟩ => by show j.val = 0 + j.val * (0 + 1); omega
      | ⟨1, _⟩ => by show l.val = 0 + l.val * (0 + 1); omega)

/-- The result buffer after the program's last line. -/
theorem tail_eq_result (c : Dev nD) :
    Pipeline.afterTail₀ cfgs (dats m) 0 (V0 m) [hostOps1] c main_v58 = result m c :=
  (tail_value m c).trans (funext fun i => by
    obtain ⟨p, q, rfl⟩ : ∃ (p : Fin 2048) (q : Fin 50000), i = ix2 p q := ⟨i 0, i 1, eq_ix2 i⟩
    exact kept_columns_apply m c p q)

/-- THE KERNEL'S RUN, READ: every weakly fair execution terminates with the result buffer at the scores of the user
    rows against the item rows, and the arguments unchanged. -/
theorem run : θ_run defs (onTc (τ := τ) (main (F := Ideal))) ⟨m, fun _ => 0, ρ⟩ fun r => ∀ c : Dev nD,
      r.2.mem ((c.tc : Thread nD τ).loc main_v58) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      ((h c).2 main_v58 (Pipeline.mem_restRefs_of main_v58 (by decide) (by decide))).trans (tail_eq_result m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KernelScores

end
-- ==== Proof.ReferenceScores.lean ====
/-
  The reference's result is the scores of the user rows against the item rows.

  The reference transposes the `50000 × 64` item matrix `I` to `64 × 50000` and multiplies the `2048 × 64` user
  matrix `U` by it: entry `(p, q)` is the sum over `k` of `U (p, k) · Iᵀ (k, q)`, and `Iᵀ (k, q) = I (q, k)`.  That
  is the inner product of row `p` of `U` with row `q` of `I`.  The two matrices `U` and `I` are kept as the two
  named stages of the reference's own run; what they are made of is never opened here.
-/
import proofs.«112845_j73821897883701_1_alg».proof.Proof.Gen.ReferenceIdeal.Read
import proofs.«112845_j73821897883701_1_alg».proof.Proof.Scores

noncomputable section

open Idealize.ShloMosaic Idealize.ShloMosaic.ValueIdx

namespace Cert.ReferenceIdeal.RefScores

open Cert.ReferenceIdeal Cert.ReferenceIdeal.Read

/-- The reference's last stage, the product with the transposed item matrix, is the scores of its user stage against
    its item stage. -/
theorem result_eq (x0 : (⟨S100000x64, .f32⟩ : BufTy).Contents (Elt Ideal)) (x1 : (⟨S50000x64, .f32⟩ : BufTy).Contents (Elt Ideal))
    (x2 : (⟨S4000000, .f32⟩ : BufTy).Contents (Elt Ideal)) (x3 x4 : (⟨S4000000, .i32⟩ : BufTy).Contents (Elt Ideal))
    (x5 : (⟨S2048, .i32⟩ : BufTy).Contents (Elt Ideal)) :
    val_main_v55 (F := Ideal) x0 x1 x2 x3 x4 x5
      = Cert.Scores.scores (M := 2048) (K := 64) (N := 50000) (φ₁ := .f32) (φ₂ := .f32)
          (val_main_v53 (F := Ideal) x0 x1 x2 x3 x4 x5) (val_main_v46 (F := Ideal) x0 x1 x2 x3 x4) := by
  funext i
  obtain ⟨p, q, rfl⟩ : ∃ (p : Fin 2048) (q : Fin 50000), i = ix2 p q := ⟨i 0, i 1, eq_ix2 i⟩
  rw [val_main_v55_apply, Cert.Scores.scores_apply]
  refine Finset.sum_congr rfl fun k _ => ?_
  rw [val_main_v54_apply]
  -- the left factor sits at (p, k); the transposed right factor at (k, q) is the item matrix at (q, k)
  have el : lidx_main_v55 (ix2 p q) k = ix2 p k :=
    funext fun a => Fin.ext (by match a with | ⟨0, _⟩ => rfl | ⟨1, _⟩ => rfl)
  have er : idx_main_v54 (ridx_main_v55 (ix2 p q) k) = ix2 q k :=
    funext fun a => Fin.ext (by match a with | ⟨0, _⟩ => rfl | ⟨1, _⟩ => rfl)
  rw [el, er]

end Cert.ReferenceIdeal.RefScores

end
-- ==== Proof.lean ====
/-
  The proof of `Cert.Claim`: the kernel and its reference compute the same scores.

  Both programs first run one and the same chain of host operations on the arguments — three rounds of gathering
  node rows, scaling them by the edge values and adding them into their destination rows, the mean of the four
  stages, the user and the item row ranges, and the gather of the requested user rows — which leaves a
  `2048 × 64` user matrix `U` and a `50000 × 64` item matrix `I`.  Then

    * the reference transposes `I` and multiplies: entry `(i, j)` is the sum over `l` of `U (i, l) · Iᵀ (l, j)`;
    * the kernel pads `I` below to `50176` rows, rounds both matrices to a narrower format (the identity at exact
      values), multiplies `U` block by block with 49 blocks of 1024 padded item rows, contracting the ROWS of each
      block, into zero accumulators that tile a `2048 × 50176` array, and keeps its first 50000 columns.

  Entry `(i, j)`, `j < 50000`, of either result is the inner product of row `i` of `U` with row `j` of `I`: the same
  64 products added in the same order (`Proof/Scores.lean`).  No law that could fail at an infinity is used, so the
  precondition is never opened.  The shared chain is carried as one pair of named stages and never unfolded
  (`Proof/EntryArrays.lean`).  The three frames are the generated ones; nothing was idealized, so `preserves` is
  trivial.
-/
import proofs.«112845_j73821897883701_1_alg».proof.Defs
import proofs.«112845_j73821897883701_1_alg».proof.Proof.Gen.Kernel
import proofs.«112845_j73821897883701_1_alg».proof.Proof.Gen.Kernel.Frame
import proofs.«112845_j73821897883701_1_alg».proof.Proof.Gen.KernelIdeal
import proofs.«112845_j73821897883701_1_alg».proof.Proof.Gen.KernelIdeal.Frame
import proofs.«112845_j73821897883701_1_alg».proof.Proof.Gen.ReferenceIdeal
import proofs.«112845_j73821897883701_1_alg».proof.Proof.Gen.Pre_finite_inputs
import proofs.«112845_j73821897883701_1_alg».proof.Proof.Gen.ReferenceIdeal.Run
import proofs.«112845_j73821897883701_1_alg».proof.Proof.Gen.ReferenceIdeal.Read
import proofs.«112845_j73821897883701_1_alg».proof.Proof.KernelScores
import proofs.«112845_j73821897883701_1_alg».proof.Proof.ReferenceScores
import Idealize.ShloMosaic.Adequacy
import Idealize.ShloMosaic.Init

noncomputable section

namespace Cert.Proof

open Idealize.ShloMosaic Idealize.SL.Sem

/-- The kernel as printed runs and keeps its arguments: the generated frame. -/
theorem frame_kernel : Cert.frame_Kernel := fun m ρ _ => Cert.Kernel.Gen.frame m ρ

/-- The idealized kernel runs and keeps its arguments: the generated frame. -/
theorem frame_ideal : Cert.frame_KernelIdeal := fun m ρ _ => Cert.KernelIdeal.Gen.frame m ρ

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the scores of the user rows against the item rows. -/
theorem algebraic : Cert.algebraic_KernelIdeal_ReferenceIdeal := by
  intro m ρ m' ρ' _ hagree
  refine ⟨fun c => Cert.KernelIdeal.KernelScores.result m c, Cert.KernelIdeal.KernelScores.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v55_eq, Cert.ReferenceIdeal.RefScores.result_eq, e0, e1, e2, e3, e4, e5]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
